-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S1600000 .f32) (main_arg3 : FVec F S2x128x128 .f32) (main_arg4 : FVec F S2x128x128 .f32) (main_arg5 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S2x128 : Shape := ⟨2, ![2, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 72
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x128x128, .f32⟩
  | .hbm, ⟨4, _⟩ => ⟨S2x128x128, .f32⟩
  | .hbm, ⟨5, _⟩ => ⟨S2x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S1600000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128x128, .f32⟩
  | .hbm, ⟨39, _⟩ => ⟨S128x128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S1600000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S2x128 : Shape := ⟨2, ![2, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x128x128, .f32⟩
  | .hbm, ⟨4, _⟩ => ⟨S2x128x128, .f32⟩
  | .hbm, ⟨5, _⟩ => ⟨S2x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S1600000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128x128, .f32⟩
  | .hbm, ⟨39, _⟩ => ⟨S128x128, .f32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S1x128x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result array named.

  The program is four segments: a stretch of host operations, the first layer's pallas_call, a second stretch of host
  operations, the second layer's pallas_call.  The generated frame follows the contents of every unscoped buffer
  through the four segments (the fold `W0 … W4`) and keeps of the last contents only that the arguments are unchanged.
  Here the same run is read once more at the result buffer: after the run it holds the last fold's contents there,
  and those are what the second pallas_call's write-backs leave in its output window's array.
-/
import proofs.«173386_j2671469658134_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last fold's contents at the result buffer are what the second pallas_call leaves in its output array. -/
theorem W4_result (c : Dev nD) :
    W4 m ρ c (Proc.devRef .tc main_v56) = (dat1 (V3 m ρ) c).arrAt 5 cfg1.N :=
  W4_arr m ρ c 5

set_option backward.isDefEq.respectTransparency.types false in
/-- Every weakly fair execution of @main terminates, nothing faulting, with the result buffer at the last fold's
    contents and the arguments as launched. -/
theorem run_named : θ_run defs (onTc (τ := τ) (main (F := F))) ⟨m, fun _ => 0, ρ⟩ (fun r => ∀ c : Dev nD,
      r.2.mem ((c.tc : Thread nD τ).loc main_v56) = W4 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v56 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.LibSageRows.lean ====
/-
  A message-passing layer on rows, read at one entry.

  Every node row of the layer's output is the aggregated-neighbour row times one weight matrix, plus the node's own row
  times a second weight matrix, plus a bias row, perhaps clamped from below at zero.  Entry (p, c) depends on row p of the
  two left operands, column c of the two weight matrices and entry c of the bias only, so one formula describes a block of
  rows and the whole array alike.  The formula is stated once over arbitrary extents and shown to be what two spellings
  compute at the ideal instance: two products accumulated into zero arrays of operands passed through a change of float
  format, added, then the bias (a one-row matrix repeated down the rows) added; and a general product with the bias row
  added, then the second general product added.  The two differ by the order in which the three summands are added, and
  addition of extended reals is commutative and associative.
-/
import proofs.«173386_j2671469658134_1_alg».proof.Proof.LibMatRows
import proofs.«173386_j2671469658134_1_alg».proof.Proof.LibHostLayout
import Idealize.ShloMosaic.Lib.ValueLayout
import Idealize.ShloMosaic.Lib.Pipeline.Value

noncomputable section

open scoped BigOperators

namespace Idealize.ShloMosaic.SageRows

open Idealize.ShloMosaic Idealize.ShloMosaic.ValueIdx Idealize.ShloMosaic.MatRows

variable {M K N : Nat}

/-- Entry (p, c) of a layer before any clamp: row p of A against column c of Wl, row p of X against column c of Wr,
    and entry c of the bias. -/
def sageAt (A X : (⟨2, ![M, K]⟩ : Shape).Idx → EReal) (Wl Wr : (⟨2, ![K, N]⟩ : Shape).Idx → EReal) (b : Fin N → EReal)
    (p : Fin M) (c : Fin N) : EReal :=
  ((∑ k : Fin K, A (ix2 p k) * Wl (ix2 k c)) + ∑ k : Fin K, X (ix2 p k) * Wr (ix2 k c)) + b c

/-- The formula depends on the operands through the entries it names only. -/
theorem sageAt_congr {M' : Nat} {A X : (⟨2, ![M, K]⟩ : Shape).Idx → EReal} {A' X' : (⟨2, ![M', K]⟩ : Shape).Idx → EReal}
    {Wl Wr Wl' Wr' : (⟨2, ![K, N]⟩ : Shape).Idx → EReal} {b b' : Fin N → EReal} {p : Fin M} {p' : Fin M'} {c : Fin N}
    (hA : ∀ k : Fin K, A (ix2 p k) = A' (ix2 p' k)) (hX : ∀ k : Fin K, X (ix2 p k) = X' (ix2 p' k))
    (hWl : ∀ k : Fin K, Wl (ix2 k c) = Wl' (ix2 k c)) (hWr : ∀ k : Fin K, Wr (ix2 k c) = Wr' (ix2 k c)) (hb : b c = b' c) :
    sageAt A X Wl Wr b p c = sageAt A' X' Wl' Wr' b' p' c := by
  unfold sageAt
  rw [hb]
  refine congrArg (· + b' c) (congrArg₂ (· + ·) ?_ ?_)
  · exact Finset.sum_congr rfl fun k _ => by rw [hA k, hWl k]
  · exact Finset.sum_congr rfl fun k _ => by rw [hX k, hWr k]

/-! ## The kernel's spelling -/

/-- Two products into zero arrays of operands passed through a change of format, added, a one-row bias repeated down the
    rows added. -/
theorem kernel_sage_apply (ht : FTy.bf16.bits < FTy.f32.bits) (hb : (⟨2, ![1, N]⟩ : Shape).Broadcasts ⟨2, ![M, N]⟩)
    (x0 x1 : FVec Ideal ⟨2, ![M, K]⟩ .f32) (x2 x3 : FVec Ideal ⟨2, ![K, N]⟩ .f32) (x4 : FVec Ideal ⟨2, ![1, N]⟩ .f32)
    (p : Fin M) (c : Fin N) :
    addf (addf
          (matmul (DotDims.plain M K N) none (truncf .bf16 x0 ht) (truncf .bf16 x2 ht)
            (constant (F := Ideal) ⟨2, ![M, N]⟩ .f32 0x00000000#32))
          (matmul (DotDims.plain M K N) none (truncf .bf16 x1 ht) (truncf .bf16 x3 ht)
            (constant (F := Ideal) ⟨2, ![M, N]⟩ .f32 0x00000000#32)))
        (broadcastTo ⟨2, ![M, N]⟩ x4 hb) (ix2 p c)
      = sageAt x0 x1 x2 x3 (fun q => x4 (ix2 (0 : Fin 1) q)) p c := by
  show (matmul (DotDims.plain M K N) none _ _ _ (ix2 p c) + matmul (DotDims.plain M K N) none _ _ _ (ix2 p c))
      + broadcastTo ⟨2, ![M, N]⟩ x4 hb (ix2 p c) = _
  rw [broadcastTo_1b_ab_apply]
  exact congrArg (· + x4 (ix2 (0 : Fin 1) c))
    (congrArg₂ (· + ·) (matmul_plain_apply none _ _ p c) (matmul_plain_apply none _ _ p c))

/-! ## The host's spelling -/

/-- The layer on whole arrays as the host spells it: a general product, the bias row repeated down the rows added, the
    second general product added. -/
def layerArr (h2 : (⟨2, ![1, N]⟩ : Shape).BroadcastsInDim ⟨2, ![M, N]⟩ (![0, 1] : Fin 2 → Fin 2))
    (A X : FVec Ideal ⟨2, ![M, K]⟩ .f32) (Wl Wr : FVec Ideal ⟨2, ![K, N]⟩ .f32) (b2 : FVec Ideal ⟨2, ![1, N]⟩ .f32) :
    FVec Ideal ⟨2, ![M, N]⟩ .f32 :=
  addf (addf (Host.dotGeneral (F := Ideal) (DotDims.plain M K N) none A Wl : FVec Ideal ⟨2, ![M, N]⟩ .f32)
        (broadcastInDim ⟨2, ![M, N]⟩ ![0, 1] h2 b2))
    (Host.dotGeneral (F := Ideal) (DotDims.plain M K N) none X Wr : FVec Ideal ⟨2, ![M, N]⟩ .f32)

/-- The clamp from below at zero on a whole array as the host spells it: the maximum with the zero scalar broadcast. -/
def reluArr (h0 : (⟨0, ![]⟩ : Shape).BroadcastsInDim ⟨2, ![M, N]⟩ (![] : Fin 0 → Fin 2))
    (v : FVec Ideal ⟨2, ![M, N]⟩ .f32) : FVec Ideal ⟨2, ![M, N]⟩ .f32 :=
  maximumf v (broadcastInDim ⟨2, ![M, N]⟩ ![] h0 (constant (F := Ideal) ⟨0, ![]⟩ .f32 0x00000000#32))

theorem layerArr_apply (h2 : (⟨2, ![1, N]⟩ : Shape).BroadcastsInDim ⟨2, ![M, N]⟩ (![0, 1] : Fin 2 → Fin 2))
    (A X : FVec Ideal ⟨2, ![M, K]⟩ .f32) (Wl Wr : FVec Ideal ⟨2, ![K, N]⟩ .f32) (b2 : FVec Ideal ⟨2, ![1, N]⟩ .f32)
    (p : Fin M) (c : Fin N) :
    layerArr h2 A X Wl Wr b2 (ix2 p c) = sageAt A X Wl Wr (fun q => b2 (ix2 (0 : Fin 1) q)) p c := by
  show ((Host.dotGeneral (F := Ideal) (DotDims.plain M K N) none A Wl : FVec Ideal ⟨2, ![M, N]⟩ .f32) (ix2 p c)
        + broadcastInDim ⟨2, ![M, N]⟩ ![0, 1] h2 b2 (ix2 p c))
      + (Host.dotGeneral (F := Ideal) (DotDims.plain M K N) none X Wr : FVec Ideal ⟨2, ![M, N]⟩ .f32) (ix2 p c) = _
  rw [Cert.HostLayout.bcast_cols_apply, dotGeneral_plain_apply, dotGeneral_plain_apply]
  exact add_right_comm _ _ _

theorem reluArr_apply (h0 : (⟨0, ![]⟩ : Shape).BroadcastsInDim ⟨2, ![M, N]⟩ (![] : Fin 0 → Fin 2))
    (v : FVec Ideal ⟨2, ![M, N]⟩ .f32) (j : (⟨2, ![M, N]⟩ : Shape).Idx) :
    reluArr h0 v j = FloatOps.maximumf (F := Ideal) (φ := .f32) (v j) (Scalar.ofBits (F := Ideal) .f32 0x00000000#32) := by
  show FloatOps.maximumf (F := Ideal) (φ := .f32) (v j)
      (broadcastInDim ⟨2, ![M, N]⟩ ![] h0 (constant (F := Ideal) ⟨0, ![]⟩ .f32 0x00000000#32) j) = _
  rw [Cert.HostLayout.bcast_scalar_apply]
  rfl

/-! ## A block of rows against the whole array -/

/-- Row r of a block of Mb rows is row n of the whole array of Mt rows: then entry (r, q) of what the kernel computes on
    the block, clamped, is entry (n, q) of the host's clamped layer on the whole arrays. -/
theorem block_entry_relu {Mb Mt : Nat} (ht : FTy.bf16.bits < FTy.f32.bits)
    (hb : (⟨2, ![1, N]⟩ : Shape).Broadcasts ⟨2, ![Mb, N]⟩)
    (h2 : (⟨2, ![1, N]⟩ : Shape).BroadcastsInDim ⟨2, ![Mt, N]⟩ (![0, 1] : Fin 2 → Fin 2))
    (h0 : (⟨0, ![]⟩ : Shape).BroadcastsInDim ⟨2, ![Mt, N]⟩ (![] : Fin 0 → Fin 2))
    (x0 x1 : FVec Ideal ⟨2, ![Mb, K]⟩ .f32) (x2 x3 : FVec Ideal ⟨2, ![K, N]⟩ .f32) (x4 : FVec Ideal ⟨2, ![1, N]⟩ .f32)
    (A X : FVec Ideal ⟨2, ![Mt, K]⟩ .f32) (Wl Wr : FVec Ideal ⟨2, ![K, N]⟩ .f32) (b2 : FVec Ideal ⟨2, ![1, N]⟩ .f32)
    (r : Fin Mb) (n : Fin Mt) (q : Fin N)
    (hA : ∀ k : Fin K, x0 (ix2 r k) = A (ix2 n k)) (hX : ∀ k : Fin K, x1 (ix2 r k) = X (ix2 n k))
    (hWl : ∀ k : Fin K, x2 (ix2 k q) = Wl (ix2 k q)) (hWr : ∀ k : Fin K, x3 (ix2 k q) = Wr (ix2 k q))
    (hbq : x4 (ix2 (0 : Fin 1) q) = b2 (ix2 (0 : Fin 1) q)) :
    maximumf (addf (addf
          (matmul (DotDims.plain Mb K N) none (truncf .bf16 x0 ht) (truncf .bf16 x2 ht)
            (constant (F := Ideal) ⟨2, ![Mb, N]⟩ .f32 0x00000000#32))
          (matmul (DotDims.plain Mb K N) none (truncf .bf16 x1 ht) (truncf .bf16 x3 ht)
            (constant (F := Ideal) ⟨2, ![Mb, N]⟩ .f32 0x00000000#32)))
        (broadcastTo ⟨2, ![Mb, N]⟩ x4 hb))
      (broadcast ⟨2, ![Mb, N]⟩ (Scalar.ofBits (F := Ideal) .f32 0x00000000#32)) (ix2 r q)
      = reluArr h0 (layerArr h2 A X Wl Wr b2) (ix2 n q) := by
  rw [reluArr_apply, layerArr_apply]
  show FloatOps.maximumf (F := Ideal) (φ := .f32)
      (addf (addf (matmul (DotDims.plain Mb K N) none _ _ _) (matmul (DotDims.plain Mb K N) none _ _ _))
        (broadcastTo ⟨2, ![Mb, N]⟩ x4 hb) (ix2 r q)) _ = _
  rw [kernel_sage_apply]
  exact congrArg (fun v => FloatOps.maximumf (F := Ideal) (φ := .f32) v (Scalar.ofBits (F := Ideal) .f32 0x00000000#32))
    (sageAt_congr hA hX hWl hWr hbq)

/-- The same without the clamp. -/
theorem block_entry {Mb Mt : Nat} (ht : FTy.bf16.bits < FTy.f32.bits)
    (hb : (⟨2, ![1, N]⟩ : Shape).Broadcasts ⟨2, ![Mb, N]⟩)
    (h2 : (⟨2, ![1, N]⟩ : Shape).BroadcastsInDim ⟨2, ![Mt, N]⟩ (![0, 1] : Fin 2 → Fin 2))
    (x0 x1 : FVec Ideal ⟨2, ![Mb, K]⟩ .f32) (x2 x3 : FVec Ideal ⟨2, ![K, N]⟩ .f32) (x4 : FVec Ideal ⟨2, ![1, N]⟩ .f32)
    (A X : FVec Ideal ⟨2, ![Mt, K]⟩ .f32) (Wl Wr : FVec Ideal ⟨2, ![K, N]⟩ .f32) (b2 : FVec Ideal ⟨2, ![1, N]⟩ .f32)
    (r : Fin Mb) (n : Fin Mt) (q : Fin N)
    (hA : ∀ k : Fin K, x0 (ix2 r k) = A (ix2 n k)) (hX : ∀ k : Fin K, x1 (ix2 r k) = X (ix2 n k))
    (hWl : ∀ k : Fin K, x2 (ix2 k q) = Wl (ix2 k q)) (hWr : ∀ k : Fin K, x3 (ix2 k q) = Wr (ix2 k q))
    (hbq : x4 (ix2 (0 : Fin 1) q) = b2 (ix2 (0 : Fin 1) q)) :
    addf (addf
          (matmul (DotDims.plain Mb K N) none (truncf .bf16 x0 ht) (truncf .bf16 x2 ht)
            (constant (F := Ideal) ⟨2, ![Mb, N]⟩ .f32 0x00000000#32))
          (matmul (DotDims.plain Mb K N) none (truncf .bf16 x1 ht) (truncf .bf16 x3 ht)
            (constant (F := Ideal) ⟨2, ![Mb, N]⟩ .f32 0x00000000#32)))
        (broadcastTo ⟨2, ![Mb, N]⟩ x4 hb) (ix2 r q)
      = layerArr h2 A X Wl Wr b2 (ix2 n q) := by
  rw [layerArr_apply, kernel_sage_apply]
  exact sageAt_congr hA hX hWl hWr hbq

end Idealize.ShloMosaic.SageRows

end
-- ==== Proof.LayerSpec.lean ====
/-
  One message-passing layer on whole arrays, as a function of an index.

  For node features X (100000 rows of 128), aggregated-neighbour features A of the same shape, a neighbour weight
  matrix Wn and a self weight matrix Ws (128 x 128 each) and a bias b (128 entries), entry (n, q) of the layer's
  output is the activation of

      (sum over k of A (n, k) * Wn (k, q)) + (sum over k of X (n, k) * Ws (k, q)) + b q.

  The first layer's activation is the maximum with zero, the second layer's the logistic function.  The kernel computes
  this block of rows by block of rows, the reference on the whole arrays at once; both are shown equal to the function
  defined here.
-/
import proofs.«173386_j2671469658134_1_alg».proof.Proof.LibSageRows

noncomputable section

open scoped BigOperators

namespace Cert.Layer

open Idealize.ShloMosaic Idealize.ShloMosaic.ValueIdx Idealize.ShloMosaic.SageRows

/-- The first layer's activation on one extended real: the maximum with the zero word. -/
abbrev relu0 (v : EReal) : EReal :=
  FloatOps.maximumf (F := Ideal) (φ := .f32) v (Scalar.ofBits (F := Ideal) .f32 0x00000000#32)

/-- The second layer's activation on one extended real. -/
abbrev sigm (v : EReal) : EReal := FloatOps.logistic (F := Ideal) (φ := .f32) v

/-- The layer with activation `act` on whole arrays. -/
def layerArr (act : EReal → EReal) (A X : (⟨2, ![100000, 128]⟩ : Shape).Idx → EReal)
    (Wn Ws : (⟨2, ![128, 128]⟩ : Shape).Idx → EReal) (b : Fin 128 → EReal) :
    (⟨2, ![100000, 128]⟩ : Shape).Idx → EReal :=
  fun i => act (sageAt A X Wn Ws b (i 0) (i 1))

theorem layerArr_ix2 (act : EReal → EReal) (A X : (⟨2, ![100000, 128]⟩ : Shape).Idx → EReal)
    (Wn Ws : (⟨2, ![128, 128]⟩ : Shape).Idx → EReal) (b : Fin 128 → EReal) (n : Fin 100000) (q : Fin 128) :
    layerArr act A X Wn Ws b (ix2 n q) = act (sageAt A X Wn Ws b n q) := rfl

end Cert.Layer

end
-- ==== Proof.LayerEntry.lean ====
/-
  The two kernel bodies read at one entry.

  Each body holds a block of 5000 aggregated-neighbour rows, the block of the same nodes' own rows, the two 128 x 128
  weight matrices and the one-row bias.  It multiplies the aggregated rows into the neighbour weights and the own rows
  into the self weights (each product accumulated from zero, the operands passed through a change of float format, which
  at the ideal instance changes nothing), adds the two products, adds the bias row to every row, and applies the
  layer's activation: the maximum with zero in the first layer, the logistic function in the second.  Entry (r, q) of
  the result is therefore the activation of

      (sum over k of agg (r, k) * Wneigh (k, q)) + (sum over k of own (r, k) * Wself (k, q)) + bias (0, q).
-/
import proofs.«173386_j2671469658134_1_alg».proof.Proof.Gen.KernelIdeal.Skeleton
import proofs.«173386_j2671469658134_1_alg».proof.Proof.LayerSpec

noncomputable section

open scoped BigOperators

namespace Cert.KernelIdeal.Hand

open Cert.KernelIdeal Cert.KernelIdeal.Gen
open Idealize.ShloMosaic Idealize.ShloMosaic.ValueIdx Idealize.ShloMosaic.MatRows Idealize.ShloMosaic.SageRows Cert.Layer

/-- The printed contraction record is the plain [5000, 128] x [128, 128] product. -/
theorem dot_eq_plain : dot_S5000x128_S128x128_S5000x128_1_0_0_1_n_n = DotDims.plain 5000 128 128 := rfl

/-- The first body's stored value at entry (r, q). The second loaded block (the own rows) meets the third loaded
    matrix (the self weights), the first block (the aggregated rows) the fourth (the neighbour weights). -/
theorem pay0_entry (x0 x1 : Vec Ideal S5000x128 .f32) (x2 x3 : Vec Ideal S128x128 .f32) (x4 : Vec Ideal S1x128 .f32)
    (r : Fin 5000) (q : Fin 128) :
    k0_pay1 (F := Ideal) x0 x1 x2 x3 x4 (ix2 r q)
      = relu0 (sageAt x0 x1 x3 x2 (fun q => x4 (ix2 (0 : Fin 1) q)) r q) := by
  unfold k0_pay1
  simp only [shapeCast_self, dot_eq_plain]
  exact congrArg relu0 (kernel_sage_apply (M := 5000) (K := 128) (N := 128) bitsLt_bf16_f32 broadcasts_S1x128_S5000x128
    x0 x1 x3 x2 x4 r q)

/-- The second body's stored value at entry (r, q). -/
theorem pay1_entry (x0 x1 : Vec Ideal S5000x128 .f32) (x2 x3 : Vec Ideal S128x128 .f32) (x4 : Vec Ideal S1x128 .f32)
    (r : Fin 5000) (q : Fin 128) :
    k1_pay1 (F := Ideal) x0 x1 x2 x3 x4 (ix2 r q)
      = sigm (sageAt x0 x1 x3 x2 (fun q => x4 (ix2 (0 : Fin 1) q)) r q) := by
  unfold k1_pay1
  simp only [shapeCast_self, dot_eq_plain]
  exact congrArg sigm (kernel_sage_apply (M := 5000) (K := 128) (N := 128) bitsLt_bf16_f32 broadcasts_S1x128_S5000x128
    x0 x1 x3 x2 x4 r q)

end Cert.KernelIdeal.Hand

end
-- ==== Proof.Region.lean ====
/-
  Each pallas_call's output array after its run, as one function of the arrays it reads.

  A pallas_call walks 20 grid points; at point `t` the windows over the aggregated rows, the own rows and the output hold
  rows `5000 t … 5000 t + 4999` of their arrays, and the windows over the two weight matrices and the bias row hold those
  arrays whole.  The body's stored value at entry (r, q) of the block is the layer's formula on rows r of the two row
  blocks; row r of a block is row `5000 t + r` of the array, so what point `t` writes back is block `t` of the layer
  function of the whole arrays.  The 20 blocks tile the output array, so after the run the array holds that function.
  Everything is stated for arbitrary contents `V` of the buffers at the region's entry.
-/
import proofs.«173386_j2671469658134_1_alg».proof.Proof.Gen.KernelIdeal.Frame
import proofs.«173386_j2671469658134_1_alg».proof.Proof.LayerEntry
import Idealize.ShloMosaic.Lib.Pipeline.Value

set_option maxRecDepth 16384

noncomputable section

namespace Cert.KernelIdeal.Hand

open Cert.KernelIdeal Cert.KernelIdeal.Gen Cert.Layer
open Idealize.ShloMosaic Idealize.ShloMosaic.TcCoe Idealize.SL.Sem
open Idealize.ShloMosaic.ValueIdx Idealize.ShloMosaic.SageRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first pallas_call -/

theorem idx_rows0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx_rows0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem idx_whole0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idx_whole0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem idx_whole0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem idx_rows0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- An element of window 0's block of rows at point `t` sits in its array at row `t * 5000 + r`, same column. -/
theorem emb0_0 (t : Fin cfg0.N) (r : Fin 5000) (k : Fin 128) (n : Fin 100000) (hn : n.val = t.val * 5000 + r.val) :
    ((cfg0.win 0).blk t).view.emb (ix2 r k) = ix2 n k := by
  obtain ⟨e0, e1⟩ := idx_rows0_0 t
  funext a; apply Fin.ext
  match a with
  | ⟨0, _⟩ => show win0_0.index t (0 : Fin 2) * 5000 + 1 * r.val = n.val; omega
  | ⟨1, _⟩ => show win0_0.index t (1 : Fin 2) * 128 + 1 * k.val = k.val; omega

/-- An element of window 1's block of rows at point `t` sits in its array at row `t * 5000 + r`, same column. -/
theorem emb0_1 (t : Fin cfg0.N) (r : Fin 5000) (k : Fin 128) (n : Fin 100000) (hn : n.val = t.val * 5000 + r.val) :
    ((cfg0.win 1).blk t).view.emb (ix2 r k) = ix2 n k := by
  obtain ⟨e0, e1⟩ := idx_rows0_1 t
  funext a; apply Fin.ext
  match a with
  | ⟨0, _⟩ => show win0_1.index t (0 : Fin 2) * 5000 + 1 * r.val = n.val; omega
  | ⟨1, _⟩ => show win0_1.index t (1 : Fin 2) * 128 + 1 * k.val = k.val; omega

/-- Window 2's block is its whole array: an element of the block sits at its own coordinates. -/
theorem emb0_2 (t : Fin cfg0.N) (a0 : Fin 128) (a1 : Fin 128) :
    ((cfg0.win 2).blk t).view.emb (ix2 a0 a1) = ix2 a0 a1 := by
  obtain ⟨e0, e1⟩ := idx_whole0_2 t
  funext a; apply Fin.ext
  match a with
  | ⟨0, _⟩ => show win0_2.index t (0 : Fin 2) * 128 + 1 * a0.val = a0.val; omega
  | ⟨1, _⟩ => show win0_2.index t (1 : Fin 2) * 128 + 1 * a1.val = a1.val; omega

/-- Window 3's block is its whole array: an element of the block sits at its own coordinates. -/
theorem emb0_3 (t : Fin cfg0.N) (a0 : Fin 128) (a1 : Fin 128) :
    ((cfg0.win 3).blk t).view.emb (ix2 a0 a1) = ix2 a0 a1 := by
  obtain ⟨e0, e1⟩ := idx_whole0_3 t
  funext a; apply Fin.ext
  match a with
  | ⟨0, _⟩ => show win0_3.index t (0 : Fin 2) * 128 + 1 * a0.val = a0.val; omega
  | ⟨1, _⟩ => show win0_3.index t (1 : Fin 2) * 128 + 1 * a1.val = a1.val; omega

/-- Window 4's block is its whole array: an element of the block sits at its own coordinates. -/
theorem emb0_4 (t : Fin cfg0.N) (a0 : Fin 1) (a1 : Fin 128) :
    ((cfg0.win 4).blk t).view.emb (ix2 a0 a1) = ix2 a0 a1 := by
  obtain ⟨e0, e1⟩ := idx_whole0_4 t
  funext a; apply Fin.ext
  match a with
  | ⟨0, _⟩ => show win0_4.index t (0 : Fin 2) * 1 + 1 * a0.val = a0.val; omega
  | ⟨1, _⟩ => show win0_4.index t (1 : Fin 2) * 128 + 1 * a1.val = a1.val; omega

/-- An element of window 5's block of rows at point `t` sits in its array at row `t * 5000 + r`, same column. -/
theorem emb0_5 (t : Fin cfg0.N) (r : Fin 5000) (k : Fin 128) (n : Fin 100000) (hn : n.val = t.val * 5000 + r.val) :
    ((cfg0.win 5).blk t).view.emb (ix2 r k) = ix2 n k := by
  obtain ⟨e0, e1⟩ := idx_rows0_5 t
  funext a; apply Fin.ext
  match a with
  | ⟨0, _⟩ => show win0_5.index t (0 : Fin 2) * 5000 + 1 * r.val = n.val; omega
  | ⟨1, _⟩ => show win0_5.index t (1 : Fin 2) * 128 + 1 * k.val = k.val; omega

/-- What point `t` writes back is block `t` of the layer function of the arrays as the region finds them: row `r` of
    each block of rows is row `t * 5000 + r` of its array, and the weight and bias blocks are the whole arrays. -/
theorem flushed0_eq (c : Dev nD) (t : Fin cfg0.N) :
    (dat0 V c).flushed 5 t = ((cfg0.win 5).blk t).view.read (Elt Ideal)
      (layerArr relu0 (V c main_v25) (V c main_arg0) (V c main_v29) (V c main_v27) (fun q => V c main_v32 (ix2 (0 : Fin 1) q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  have hN : grid0.N = 20 := N_0
  have ht : t.val < grid0.N := t.isLt
  have hr : r.val < 5000 := r.isLt
  obtain ⟨n, hn⟩ : ∃ n : Fin 100000, n.val = t.val * 5000 + r.val := ⟨⟨t.val * 5000 + r.val, by omega⟩, rfl⟩
  show k0_pay1 (iblk0 V c 0 t) (iblk0 V c 1 t) (iblk0 V c 2 t) (iblk0 V c 3 t) (iblk0 V c 4 t) (ix2 r q)
    = layerArr relu0 (V c main_v25) (V c main_arg0) (V c main_v29) (V c main_v27) (fun q => V c main_v32 (ix2 (0 : Fin 1) q))
        (((cfg0.win 5).blk t).view.emb (ix2 r q))
  rw [emb0_5 t r q n hn, layerArr_ix2]
  refine (pay0_entry (iblk0 V c 0 t) (iblk0 V c 1 t) (iblk0 V c 2 t) (iblk0 V c 3 t) (iblk0 V c 4 t) r q).trans ?_
  refine congrArg relu0 (sageAt_congr ?_ ?_ ?_ ?_ ?_)
  · intro k
    show V c main_v25 (((cfg0.win 0).blk t).view.emb (ix2 r k)) = V c main_v25 (ix2 n k)
    rw [emb0_0 t r k n hn]
  · intro k
    show V c main_arg0 (((cfg0.win 1).blk t).view.emb (ix2 r k)) = V c main_arg0 (ix2 n k)
    rw [emb0_1 t r k n hn]
  · intro k
    show V c main_v29 (((cfg0.win 3).blk t).view.emb (ix2 k q)) = V c main_v29 (ix2 k q)
    rw [emb0_3 t k q]
  · intro k
    show V c main_v27 (((cfg0.win 2).blk t).view.emb (ix2 k q)) = V c main_v27 (ix2 k q)
    rw [emb0_2 t k q]
  · show V c main_v32 (((cfg0.win 4).blk t).view.emb (ix2 (0 : Fin 1) q)) = V c main_v32 (ix2 (0 : Fin 1) q)
    rw [emb0_4 t (0 : Fin 1) q]

/-- After the first pallas_call its output array holds the first layer of the arrays as the region finds them. -/
theorem final0 (c : Dev nD) :
    (dat0 V c).arrAt 5 cfg0.N
      = layerArr relu0 (V c main_v25) (V c main_arg0) (V c main_v29) (V c main_v27) (fun q => V c main_v32 (ix2 (0 : Fin 1) q)) :=
  (dat0 V c).arrAt_eq_of_cover 5 _ (fun t _ => flushed0_eq V c t) fun i => by
    -- every row of the output array is in the block of the point `row / 5000`
    have hN : grid0.N = 20 := N_0
    have h0 : (i 0 : Nat) < 100000 := (i 0).isLt
    have h1 : (i 1 : Nat) < 128 := (i 1).isLt
    have hlt : (i 0 : Nat) / 5000 < grid0.N := by omega
    obtain ⟨e0, e1⟩ := idx_rows0_5 ⟨(i 0 : Nat) / 5000, hlt⟩
    refine ⟨⟨(i 0 : Nat) / 5000, hlt⟩, flush0_5 _, ?_⟩
    show i ∈ ((View.whole main_v33).slice (win0_5.rect ⟨(i 0 : Nat) / 5000, hlt⟩)).set
    rw [View.set_slice_whole, Rect.mem_set_unit]
    intro a
    match a with
    | ⟨0, _⟩ =>
      show win0_5.index ⟨(i 0 : Nat) / 5000, hlt⟩ (0 : Fin 2) * 5000 ≤ (i 0 : Nat)
        ∧ (i 0 : Nat) < win0_5.index ⟨(i 0 : Nat) / 5000, hlt⟩ (0 : Fin 2) * 5000 + 5000
      rw [e0]; show (i 0 : Nat) / 5000 * 5000 ≤ (i 0 : Nat) ∧ (i 0 : Nat) < (i 0 : Nat) / 5000 * 5000 + 5000; omega
    | ⟨1, _⟩ =>
      show win0_5.index ⟨(i 0 : Nat) / 5000, hlt⟩ (1 : Fin 2) * 128 ≤ (i 1 : Nat)
        ∧ (i 1 : Nat) < win0_5.index ⟨(i 0 : Nat) / 5000, hlt⟩ (1 : Fin 2) * 128 + 128
      rw [e1]; omega

/-! ## The second pallas_call -/

theorem idx_rows1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem idx_rows1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

theorem idx_whole1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem idx_whole1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem idx_whole1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem idx_rows1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- An element of window 0's block of rows at point `t` sits in its array at row `t * 5000 + r`, same column. -/
theorem emb1_0 (t : Fin cfg1.N) (r : Fin 5000) (k : Fin 128) (n : Fin 100000) (hn : n.val = t.val * 5000 + r.val) :
    ((cfg1.win 0).blk t).view.emb (ix2 r k) = ix2 n k := by
  obtain ⟨e0, e1⟩ := idx_rows1_0 t
  funext a; apply Fin.ext
  match a with
  | ⟨0, _⟩ => show win1_0.index t (0 : Fin 2) * 5000 + 1 * r.val = n.val; omega
  | ⟨1, _⟩ => show win1_0.index t (1 : Fin 2) * 128 + 1 * k.val = k.val; omega

/-- An element of window 1's block of rows at point `t` sits in its array at row `t * 5000 + r`, same column. -/
theorem emb1_1 (t : Fin cfg1.N) (r : Fin 5000) (k : Fin 128) (n : Fin 100000) (hn : n.val = t.val * 5000 + r.val) :
    ((cfg1.win 1).blk t).view.emb (ix2 r k) = ix2 n k := by
  obtain ⟨e0, e1⟩ := idx_rows1_1 t
  funext a; apply Fin.ext
  match a with
  | ⟨0, _⟩ => show win1_1.index t (0 : Fin 2) * 5000 + 1 * r.val = n.val; omega
  | ⟨1, _⟩ => show win1_1.index t (1 : Fin 2) * 128 + 1 * k.val = k.val; omega

/-- Window 2's block is its whole array: an element of the block sits at its own coordinates. -/
theorem emb1_2 (t : Fin cfg1.N) (a0 : Fin 128) (a1 : Fin 128) :
    ((cfg1.win 2).blk t).view.emb (ix2 a0 a1) = ix2 a0 a1 := by
  obtain ⟨e0, e1⟩ := idx_whole1_2 t
  funext a; apply Fin.ext
  match a with
  | ⟨0, _⟩ => show win1_2.index t (0 : Fin 2) * 128 + 1 * a0.val = a0.val; omega
  | ⟨1, _⟩ => show win1_2.index t (1 : Fin 2) * 128 + 1 * a1.val = a1.val; omega

/-- Window 3's block is its whole array: an element of the block sits at its own coordinates. -/
theorem emb1_3 (t : Fin cfg1.N) (a0 : Fin 128) (a1 : Fin 128) :
    ((cfg1.win 3).blk t).view.emb (ix2 a0 a1) = ix2 a0 a1 := by
  obtain ⟨e0, e1⟩ := idx_whole1_3 t
  funext a; apply Fin.ext
  match a with
  | ⟨0, _⟩ => show win1_3.index t (0 : Fin 2) * 128 + 1 * a0.val = a0.val; omega
  | ⟨1, _⟩ => show win1_3.index t (1 : Fin 2) * 128 + 1 * a1.val = a1.val; omega

/-- Window 4's block is its whole array: an element of the block sits at its own coordinates. -/
theorem emb1_4 (t : Fin cfg1.N) (a0 : Fin 1) (a1 : Fin 128) :
    ((cfg1.win 4).blk t).view.emb (ix2 a0 a1) = ix2 a0 a1 := by
  obtain ⟨e0, e1⟩ := idx_whole1_4 t
  funext a; apply Fin.ext
  match a with
  | ⟨0, _⟩ => show win1_4.index t (0 : Fin 2) * 1 + 1 * a0.val = a0.val; omega
  | ⟨1, _⟩ => show win1_4.index t (1 : Fin 2) * 128 + 1 * a1.val = a1.val; omega

/-- An element of window 5's block of rows at point `t` sits in its array at row `t * 5000 + r`, same column. -/
theorem emb1_5 (t : Fin cfg1.N) (r : Fin 5000) (k : Fin 128) (n : Fin 100000) (hn : n.val = t.val * 5000 + r.val) :
    ((cfg1.win 5).blk t).view.emb (ix2 r k) = ix2 n k := by
  obtain ⟨e0, e1⟩ := idx_rows1_5 t
  funext a; apply Fin.ext
  match a with
  | ⟨0, _⟩ => show win1_5.index t (0 : Fin 2) * 5000 + 1 * r.val = n.val; omega
  | ⟨1, _⟩ => show win1_5.index t (1 : Fin 2) * 128 + 1 * k.val = k.val; omega

/-- What point `t` writes back is block `t` of the layer function of the arrays as the region finds them: row `r` of
    each block of rows is row `t * 5000 + r` of its array, and the weight and bias blocks are the whole arrays. -/
theorem flushed1_eq (c : Dev nD) (t : Fin cfg1.N) :
    (dat1 V c).flushed 5 t = ((cfg1.win 5).blk t).view.read (Elt Ideal)
      (layerArr sigm (V c main_v48) (V c main_v33) (V c main_v52) (V c main_v50) (fun q => V c main_v55 (ix2 (0 : Fin 1) q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  have hN : grid1.N = 20 := N_1
  have ht : t.val < grid1.N := t.isLt
  have hr : r.val < 5000 := r.isLt
  obtain ⟨n, hn⟩ : ∃ n : Fin 100000, n.val = t.val * 5000 + r.val := ⟨⟨t.val * 5000 + r.val, by omega⟩, rfl⟩
  show k1_pay1 (iblk1 V c 0 t) (iblk1 V c 1 t) (iblk1 V c 2 t) (iblk1 V c 3 t) (iblk1 V c 4 t) (ix2 r q)
    = layerArr sigm (V c main_v48) (V c main_v33) (V c main_v52) (V c main_v50) (fun q => V c main_v55 (ix2 (0 : Fin 1) q))
        (((cfg1.win 5).blk t).view.emb (ix2 r q))
  rw [emb1_5 t r q n hn, layerArr_ix2]
  refine (pay1_entry (iblk1 V c 0 t) (iblk1 V c 1 t) (iblk1 V c 2 t) (iblk1 V c 3 t) (iblk1 V c 4 t) r q).trans ?_
  refine congrArg sigm (sageAt_congr ?_ ?_ ?_ ?_ ?_)
  · intro k
    show V c main_v48 (((cfg1.win 0).blk t).view.emb (ix2 r k)) = V c main_v48 (ix2 n k)
    rw [emb1_0 t r k n hn]
  · intro k
    show V c main_v33 (((cfg1.win 1).blk t).view.emb (ix2 r k)) = V c main_v33 (ix2 n k)
    rw [emb1_1 t r k n hn]
  · intro k
    show V c main_v52 (((cfg1.win 3).blk t).view.emb (ix2 k q)) = V c main_v52 (ix2 k q)
    rw [emb1_3 t k q]
  · intro k
    show V c main_v50 (((cfg1.win 2).blk t).view.emb (ix2 k q)) = V c main_v50 (ix2 k q)
    rw [emb1_2 t k q]
  · show V c main_v55 (((cfg1.win 4).blk t).view.emb (ix2 (0 : Fin 1) q)) = V c main_v55 (ix2 (0 : Fin 1) q)
    rw [emb1_4 t (0 : Fin 1) q]

/-- After the second pallas_call its output array holds the second layer of the arrays as the region finds them. -/
theorem final1 (c : Dev nD) :
    (dat1 V c).arrAt 5 cfg1.N
      = layerArr sigm (V c main_v48) (V c main_v33) (V c main_v52) (V c main_v50) (fun q => V c main_v55 (ix2 (0 : Fin 1) q)) :=
  (dat1 V c).arrAt_eq_of_cover 5 _ (fun t _ => flushed1_eq V c t) fun i => by
    -- every row of the output array is in the block of the point `row / 5000`
    have hN : grid1.N = 20 := N_1
    have h0 : (i 0 : Nat) < 100000 := (i 0).isLt
    have h1 : (i 1 : Nat) < 128 := (i 1).isLt
    have hlt : (i 0 : Nat) / 5000 < grid1.N := by omega
    obtain ⟨e0, e1⟩ := idx_rows1_5 ⟨(i 0 : Nat) / 5000, hlt⟩
    refine ⟨⟨(i 0 : Nat) / 5000, hlt⟩, flush1_5 _, ?_⟩
    show i ∈ ((View.whole main_v56).slice (win1_5.rect ⟨(i 0 : Nat) / 5000, hlt⟩)).set
    rw [View.set_slice_whole, Rect.mem_set_unit]
    intro a
    match a with
    | ⟨0, _⟩ =>
      show win1_5.index ⟨(i 0 : Nat) / 5000, hlt⟩ (0 : Fin 2) * 5000 ≤ (i 0 : Nat)
        ∧ (i 0 : Nat) < win1_5.index ⟨(i 0 : Nat) / 5000, hlt⟩ (0 : Fin 2) * 5000 + 5000
      rw [e0]; show (i 0 : Nat) / 5000 * 5000 ≤ (i 0 : Nat) ∧ (i 0 : Nat) < (i 0 : Nat) / 5000 * 5000 + 5000; omega
    | ⟨1, _⟩ =>
      show win1_5.index ⟨(i 0 : Nat) / 5000, hlt⟩ (1 : Fin 2) * 128 ≤ (i 1 : Nat)
        ∧ (i 1 : Nat) < win1_5.index ⟨(i 0 : Nat) / 5000, hlt⟩ (1 : Fin 2) * 128 + 128
      rw [e1]; omega

end Cert.KernelIdeal.Hand

end
-- ==== Proof.HostChain.lean ====
/-
  The host operations around the two pallas_calls, as named functions.

  Both layers are fed by the same host computation.  From the edge list come the source and the destination index of
  every edge; the degree of a node is the number of edges arriving at it (a sum of ones scattered by destination), at
  least one; the aggregated features of a node are the sum over the edges arriving at it of the edge's weight times the
  source node's feature row (rows gathered by source, with a negative index wrapped once by the number of nodes, scaled,
  and scatter-added by destination), divided by the node's degree.  Each layer's weights are one slice of a stacked
  weight array reshaped to a matrix, and its bias one slice of the stacked biases reshaped to a vector.
  The functions below spell these operations exactly as the program does: what a buffer holds after a stretch of host
  operations is one of them applied to the arguments.
-/
import proofs.«173386_j2671469658134_1_alg».proof.Proof.Gen.KernelIdeal
import Idealize.ShloMosaic.PureOps.Ideal

noncomputable section

namespace Cert.KernelIdeal.Hand

open Cert.KernelIdeal Cert.KernelIdeal.Facts₀ Cert.KernelIdeal.Facts Idealize.ShloMosaic

/-- Every edge's source node index: row 0 of the edge list. -/
def srcIdx (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Every edge's destination node index: row 1 of the edge list. -/
def dstIdx (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- Every node's degree, at least one, as a column. -/
def degCol (d : (⟨S1600000, .i32⟩ : BufTy).Contents (Elt Ideal)) : (⟨S100000x1, .f32⟩ : BufTy).Contents (Elt Ideal) :=
  broadcastInDim S100000x1 ![0] bcast_S100000_S100000x1_0
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 d)
        (broadcastInDim S1600000 ![] bcast_S_S1600000 (constant (F := Ideal) S_ .f32 0x3F800000#32)))
      (broadcastInDim S100000 ![] bcast_S_S100000 (constant (F := Ideal) S_ .f32 0x3F800000#32)))

/-- The degree-normalised weighted sum of the neighbours' feature rows. -/
def aggregate (X : (⟨S100000x128, .f32⟩ : BufTy).Contents (Elt Ideal)) (s d : (⟨S1600000, .i32⟩ : BufTy).Contents (Elt Ideal))
    (dc : (⟨S100000x1, .f32⟩ : BufTy).Contents (Elt Ideal)) (ew : (⟨S1600000, .f32⟩ : BufTy).Contents (Elt Ideal)) : (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (mulf (broadcastInDim S1600000x128 ![0, 1] bcast_S1600000x1_S1600000x128_0_1 (broadcastInDim S1600000x1 ![0] bcast_S1600000_S1600000x1_0 ew))
        (Host.gather gather_S100000x128_S1600000x1_S1600000x128_1_0_n_n_0_1_1128 X
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s)))))
    (broadcastInDim S100000x128 ![0, 1] bcast_S100000x1_S100000x128_0_1 dc)

/-- Layer 0's matrix out of a stacked weight array. -/
def weight0 (w : (⟨S2x128x128, .f32⟩ : BufTy).Contents (Elt Ideal)) : (⟨S128x128, .f32⟩ : BufTy).Contents (Elt Ideal) :=
  shapeCast S128x128 (extractStridedSlice S1x128x128 ![0, 0, 0] w slices_S2x128x128_S1x128x128_0_0_0) shapeCasts_S1x128x128_S128x128

/-- Layer 1's matrix out of a stacked weight array. -/
def weight1 (w : (⟨S2x128x128, .f32⟩ : BufTy).Contents (Elt Ideal)) : (⟨S128x128, .f32⟩ : BufTy).Contents (Elt Ideal) :=
  shapeCast S128x128 (extractStridedSlice S1x128x128 ![1, 0, 0] w slices_S2x128x128_S1x128x128_1_0_0) shapeCasts_S1x128x128_S128x128

/-- Layer 0's bias vector out of the stacked biases. -/
def bias0 (b : (⟨S2x128, .f32⟩ : BufTy).Contents (Elt Ideal)) : (⟨S128, .f32⟩ : BufTy).Contents (Elt Ideal) :=
  shapeCast S128 (extractStridedSlice S1x128 ![0, 0] b slices_S2x128_S1x128_0_0) shapeCasts_S1x128_S128

/-- Layer 1's bias vector out of the stacked biases. -/
def bias1 (b : (⟨S2x128, .f32⟩ : BufTy).Contents (Elt Ideal)) : (⟨S128, .f32⟩ : BufTy).Contents (Elt Ideal) :=
  shapeCast S128 (extractStridedSlice S1x128 ![1, 0] b slices_S2x128_S1x128_1_0) shapeCasts_S1x128_S128

/-- A bias vector laid out as the one-row matrix the kernel's bias window reads. -/
def biasRow (b : (⟨S128, .f32⟩ : BufTy).Contents (Elt Ideal)) : (⟨S1x128, .f32⟩ : BufTy).Contents (Elt Ideal) :=
  shapeCast S1x128 b shapeCasts_S128_S1x128

end Cert.KernelIdeal.Hand

end
-- ==== Proof.HostRead.lean ====
/-
  What the buffers the two pallas_calls read hold when each is entered.

  A stretch of host operations turns the contents `U` of the buffers before it into the contents after it; read at one
  buffer, the contents after are the composed operations applied to the contents before.  After the first stretch the
  first pallas_call's aggregated-rows array holds the aggregation of the node features, its weight arrays layer 0's
  slices, its bias row layer 0's bias.  The second stretch does the same on whatever the feature buffer written by the first
  pallas_call holds, with the edge indices, degrees and edge weights the first stretch computed, and slices out layer
  1's weights and bias.  Both are stated for arbitrary contents before the stretch.
-/
import proofs.«173386_j2671469658134_1_alg».proof.Proof.Gen.KernelIdeal.Launch
import proofs.«173386_j2671469658134_1_alg».proof.Proof.HostChain
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (U : Valuation τ sig (Elt Ideal))

/-! ## The first stretch -/

theorem s0_src : StableHlo.after hostOps0 U (Proc.devRef .tc main_v1) = srcIdx (U (Proc.devRef .tc main_arg1)) := by
  unfold srcIdx
  dsimp only [hostOps0]
  after_results_simp <;> rfl

theorem s0_dst : StableHlo.after hostOps0 U (Proc.devRef .tc main_v3) = dstIdx (U (Proc.devRef .tc main_arg1)) := by
  unfold dstIdx
  dsimp only [hostOps0]
  after_results_simp <;> rfl

theorem s0_deg : StableHlo.after hostOps0 U (Proc.devRef .tc main_v10) = degCol (dstIdx (U (Proc.devRef .tc main_arg1))) := by
  unfold degCol dstIdx
  dsimp only [hostOps0]
  after_results_simp <;> rfl

theorem s0_agg : StableHlo.after hostOps0 U (Proc.devRef .tc main_v25) = aggregate (U (Proc.devRef .tc main_arg0)) (srcIdx (U (Proc.devRef .tc main_arg1))) (dstIdx (U (Proc.devRef .tc main_arg1))) (degCol (dstIdx (U (Proc.devRef .tc main_arg1)))) (U (Proc.devRef .tc main_arg2)) := by
  unfold aggregate degCol srcIdx dstIdx
  dsimp only [hostOps0]
  after_results_simp <;> rfl

theorem s0_wself : StableHlo.after hostOps0 U (Proc.devRef .tc main_v27) = weight0 (U (Proc.devRef .tc main_arg3)) := by
  unfold weight0
  dsimp only [hostOps0]
  after_results_simp <;> rfl

theorem s0_wneigh : StableHlo.after hostOps0 U (Proc.devRef .tc main_v29) = weight0 (U (Proc.devRef .tc main_arg4)) := by
  unfold weight0
  dsimp only [hostOps0]
  after_results_simp <;> rfl

theorem s0_bias : StableHlo.after hostOps0 U (Proc.devRef .tc main_v32) = biasRow (bias0 (U (Proc.devRef .tc main_arg5))) := by
  unfold biasRow bias0
  dsimp only [hostOps0]
  after_results_simp <;> rfl

theorem s0_arg0 : StableHlo.after hostOps0 U (Proc.devRef .tc main_arg0) = (U (Proc.devRef .tc main_arg0)) := by
  skip
  dsimp only [hostOps0]
  after_results_simp <;> rfl

theorem s0_arg1 : StableHlo.after hostOps0 U (Proc.devRef .tc main_arg1) = (U (Proc.devRef .tc main_arg1)) := by
  skip
  dsimp only [hostOps0]
  after_results_simp <;> rfl

theorem s0_arg2 : StableHlo.after hostOps0 U (Proc.devRef .tc main_arg2) = (U (Proc.devRef .tc main_arg2)) := by
  skip
  dsimp only [hostOps0]
  after_results_simp <;> rfl

theorem s0_arg3 : StableHlo.after hostOps0 U (Proc.devRef .tc main_arg3) = (U (Proc.devRef .tc main_arg3)) := by
  skip
  dsimp only [hostOps0]
  after_results_simp <;> rfl

theorem s0_arg4 : StableHlo.after hostOps0 U (Proc.devRef .tc main_arg4) = (U (Proc.devRef .tc main_arg4)) := by
  skip
  dsimp only [hostOps0]
  after_results_simp <;> rfl

theorem s0_arg5 : StableHlo.after hostOps0 U (Proc.devRef .tc main_arg5) = (U (Proc.devRef .tc main_arg5)) := by
  skip
  dsimp only [hostOps0]
  after_results_simp <;> rfl

/-! ## The second stretch -/

theorem s1_agg : StableHlo.after hostOps1 U (Proc.devRef .tc main_v48) = aggregate (U (Proc.devRef .tc main_v33)) (U (Proc.devRef .tc main_v1)) (U (Proc.devRef .tc main_v3)) (U (Proc.devRef .tc main_v10)) (U (Proc.devRef .tc main_arg2)) := by
  unfold aggregate
  dsimp only [hostOps1]
  after_results_simp <;> rfl

theorem s1_h : StableHlo.after hostOps1 U (Proc.devRef .tc main_v33) = (U (Proc.devRef .tc main_v33)) := by
  skip
  dsimp only [hostOps1]
  after_results_simp <;> rfl

theorem s1_wself : StableHlo.after hostOps1 U (Proc.devRef .tc main_v50) = weight1 (U (Proc.devRef .tc main_arg3)) := by
  unfold weight1
  dsimp only [hostOps1]
  after_results_simp <;> rfl

theorem s1_wneigh : StableHlo.after hostOps1 U (Proc.devRef .tc main_v52) = weight1 (U (Proc.devRef .tc main_arg4)) := by
  unfold weight1
  dsimp only [hostOps1]
  after_results_simp <;> rfl

theorem s1_bias : StableHlo.after hostOps1 U (Proc.devRef .tc main_v55) = biasRow (bias1 (U (Proc.devRef .tc main_arg5))) := by
  unfold biasRow bias1
  dsimp only [hostOps1]
  after_results_simp <;> rfl

end Cert.KernelIdeal.Hand

end
-- ==== Proof.KernelValue.lean ====
/-
  What the idealized kernel's result buffer holds after the run: two layers of the arguments.

  The first pallas_call's output array holds the first layer (maximum with zero) of the aggregation of the node features,
  the node features, layer 0's weights and layer 0's bias; call it the hidden features.  The second stretch of host
  operations aggregates the hidden features with the same edge indices, degrees and weights, and the second pallas_call's
  output array, the result, holds the second layer (logistic) of that aggregation, the hidden features, layer 1's
  weights and layer 1's bias.
-/
import proofs.«173386_j2671469658134_1_alg».proof.Proof.KernelRun
import proofs.«173386_j2671469658134_1_alg».proof.Proof.Region
import proofs.«173386_j2671469658134_1_alg».proof.Proof.HostRead

set_option maxRecDepth 16384

noncomputable section

namespace Cert.KernelIdeal.Hand

open Cert.KernelIdeal Cert.KernelIdeal.Gen Cert.Layer
open Idealize.ShloMosaic Idealize.ShloMosaic.TcCoe Idealize.SL.Sem Idealize.ShloMosaic.ValueIdx

/-- The hidden features: the first layer of the arguments. `ws` are the stacked self weights, `wn` the stacked neighbour
    weights. -/
def hidden (x : (⟨S100000x128, .f32⟩ : BufTy).Contents (Elt Ideal)) (ei : (⟨S2x1600000, .i32⟩ : BufTy).Contents (Elt Ideal)) (ew : (⟨S1600000, .f32⟩ : BufTy).Contents (Elt Ideal)) (ws wn : (⟨S2x128x128, .f32⟩ : BufTy).Contents (Elt Ideal)) (b : (⟨S2x128, .f32⟩ : BufTy).Contents (Elt Ideal)) : S100000x128.Idx → EReal :=
  layerArr relu0 (aggregate x (srcIdx ei) (dstIdx ei) (degCol (dstIdx ei)) ew) x (weight0 wn) (weight0 ws)
    (fun q => biasRow (bias0 b) (ix2 (0 : Fin 1) q))

/-- The result: the second layer of the hidden features. -/
def model (x : (⟨S100000x128, .f32⟩ : BufTy).Contents (Elt Ideal)) (ei : (⟨S2x1600000, .i32⟩ : BufTy).Contents (Elt Ideal)) (ew : (⟨S1600000, .f32⟩ : BufTy).Contents (Elt Ideal)) (ws wn : (⟨S2x128x128, .f32⟩ : BufTy).Contents (Elt Ideal)) (b : (⟨S2x128, .f32⟩ : BufTy).Contents (Elt Ideal)) : S100000x128.Idx → EReal :=
  layerArr sigm (aggregate (hidden x ei ew ws wn b) (srcIdx ei) (dstIdx ei) (degCol (dstIdx ei)) ew) (hidden x ei ew ws wn b)
    (weight1 wn) (weight1 ws) (fun q => biasRow (bias1 b) (ix2 (0 : Fin 1) q))

variable (m : (ℓ : Loc nD τ sig) → Buf (Elt Ideal) ℓ) (ρ : Dev nD → PrngReg)

/-! ## The memory the first pallas_call leaves, at the buffers the second stretch reads -/

/-- The first pallas_call's output array holds the hidden features. -/
theorem W2_hidden (c : Dev nD) :
    W2 m ρ c (Proc.devRef .tc main_v33)
      = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((final0 (V1 m ρ) c).trans ?_)
  show layerArr relu0 (W1 m ρ c (Proc.devRef .tc main_v25)) (W1 m ρ c (Proc.devRef .tc main_arg0))
      (W1 m ρ c (Proc.devRef .tc main_v29)) (W1 m ρ c (Proc.devRef .tc main_v27))
      (fun q => W1 m ρ c (Proc.devRef .tc main_v32) (ix2 (0 : Fin 1) q)) = _
  rw [show W1 m ρ c (Proc.devRef .tc main_v25) = _ from s0_agg (W0 m ρ c),
    show W1 m ρ c (Proc.devRef .tc main_arg0) = _ from s0_arg0 (W0 m ρ c),
    show W1 m ρ c (Proc.devRef .tc main_v29) = _ from s0_wneigh (W0 m ρ c),
    show W1 m ρ c (Proc.devRef .tc main_v27) = _ from s0_wself (W0 m ρ c),
    show W1 m ρ c (Proc.devRef .tc main_v32) = _ from s0_bias (W0 m ρ c)]
  rfl

theorem W2_src (c : Dev nD) : W2 m ρ c (Proc.devRef .tc main_v1) = srcIdx (m ((c : Thread nD τ).loc main_arg1)) :=
  (W2_of_ne m ρ c main_v1 (by decide)).trans (s0_src (W0 m ρ c))

theorem W2_dst (c : Dev nD) : W2 m ρ c (Proc.devRef .tc main_v3) = dstIdx (m ((c : Thread nD τ).loc main_arg1)) :=
  (W2_of_ne m ρ c main_v3 (by decide)).trans (s0_dst (W0 m ρ c))

theorem W2_deg (c : Dev nD) : W2 m ρ c (Proc.devRef .tc main_v10) = degCol (dstIdx (m ((c : Thread nD τ).loc main_arg1))) :=
  (W2_of_ne m ρ c main_v10 (by decide)).trans (s0_deg (W0 m ρ c))

theorem W2_ew (c : Dev nD) : W2 m ρ c (Proc.devRef .tc main_arg2) = (m ((c : Thread nD τ).loc main_arg2)) :=
  (W2_of_ne m ρ c main_arg2 (by decide)).trans (s0_arg2 (W0 m ρ c))

theorem W2_arg3 (c : Dev nD) : W2 m ρ c (Proc.devRef .tc main_arg3) = (m ((c : Thread nD τ).loc main_arg3)) :=
  (W2_of_ne m ρ c main_arg3 (by decide)).trans (s0_arg3 (W0 m ρ c))

theorem W2_arg4 (c : Dev nD) : W2 m ρ c (Proc.devRef .tc main_arg4) = (m ((c : Thread nD τ).loc main_arg4)) :=
  (W2_of_ne m ρ c main_arg4 (by decide)).trans (s0_arg4 (W0 m ρ c))

theorem W2_arg5 (c : Dev nD) : W2 m ρ c (Proc.devRef .tc main_arg5) = (m ((c : Thread nD τ).loc main_arg5)) :=
  (W2_of_ne m ρ c main_arg5 (by decide)).trans (s0_arg5 (W0 m ρ c))

/-! ## The result -/

/-- After the run the result buffer holds the two-layer model of the arguments. -/
theorem kernel_value (c : Dev nD) :
    W4 m ρ c (Proc.devRef .tc main_v56)
      = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_result m ρ c).trans ((final1 (V3 m ρ) c).trans ?_)
  show layerArr sigm (W3 m ρ c (Proc.devRef .tc main_v48)) (W3 m ρ c (Proc.devRef .tc main_v33))
      (W3 m ρ c (Proc.devRef .tc main_v52)) (W3 m ρ c (Proc.devRef .tc main_v50))
      (fun q => W3 m ρ c (Proc.devRef .tc main_v55) (ix2 (0 : Fin 1) q)) = _
  rw [show W3 m ρ c (Proc.devRef .tc main_v48) = _ from s1_agg (W2 m ρ c),
    show W3 m ρ c (Proc.devRef .tc main_v33) = _ from s1_h (W2 m ρ c),
    show W3 m ρ c (Proc.devRef .tc main_v52) = _ from s1_wneigh (W2 m ρ c),
    show W3 m ρ c (Proc.devRef .tc main_v50) = _ from s1_wself (W2 m ρ c),
    show W3 m ρ c (Proc.devRef .tc main_v55) = _ from s1_bias (W2 m ρ c)]
  rw [W2_hidden m ρ c, W2_src m ρ c, W2_dst m ρ c, W2_deg m ρ c, W2_ew m ρ c, W2_arg3 m ρ c, W2_arg4 m ρ c, W2_arg5 m ρ c]
  rfl

end Cert.KernelIdeal.Hand

end
-- ==== Proof.RefSide.lean ====
/-
  The reference, layer by layer.

  The reference computes each layer on the whole arrays: the aggregated features times the neighbour weights, plus the
  node features times the self weights, plus the bias (a vector made a one-row matrix and repeated down the rows); then
  the maximum with zero in the first layer, and in the second the logistic function spelt out as 1 / (1 + exp (-v)).
  Read at entry (n, q), a general product is the sum over the shared axis and the repeated bias its entry q, so each
  layer is the layer function of its operands; and on the extended reals the logistic function is by definition the
  quotient 1 / (1 + exp (-v)), the constant word 0x3F800000 being the number one.
  The second layer's aggregation is the first layer's, applied to the first layer's output.
-/
import proofs.«173386_j2671469658134_1_alg».proof.Proof.Gen.ReferenceIdeal.Read
import proofs.«173386_j2671469658134_1_alg».proof.Proof.LayerSpec
import Idealize.ShloMosaic.PureOps.IdealRules

noncomputable section

open scoped BigOperators

namespace Cert.ReferenceIdeal.Hand

open Cert.ReferenceIdeal Cert.ReferenceIdeal.Facts₀ Cert.ReferenceIdeal.Facts Cert.ReferenceIdeal.Read Cert.Layer
open Idealize.ShloMosaic Idealize.ShloMosaic.ValueIdx Idealize.ShloMosaic.MatRows Idealize.ShloMosaic.SageRows

/-- The printed contraction record is the plain [100000, 128] x [128, 128] product. -/
theorem dot_eq_plain : dot_S100000x128_S128x128_S100000x128_1_0_0_1_n_n = DotDims.plain 100000 128 128 := rfl

/-- The word 0x3F800000 is the number one. -/
theorem one_word : Ideal.ofBits .f32 0x3F800000#32 = 1 := IdealRules.sign_bit.ideal_onePat .f32

/-- A layer before its activation, as the reference spells it, at entry (n, q). -/
theorem pre_apply (A X : FVec Ideal S100000x128 .f32) (Wn Ws : FVec Ideal S128x128 .f32) (b : FVec Ideal S128 .f32)
    (n : Fin 100000) (q : Fin 128) :
    addf (F := Ideal)
        (addf (F := Ideal) (Host.dotGeneral (F := Ideal) dot_S100000x128_S128x128_S100000x128_1_0_0_1_n_n none A Wn)
          (Host.dotGeneral (F := Ideal) dot_S100000x128_S128x128_S100000x128_1_0_0_1_n_n none X Ws))
        (broadcastInDim S100000x128 ![0, 1] bcast_S1x128_S100000x128_0_1 (broadcastInDim S1x128 ![1] bcast_S128_S1x128_1 b)) (ix2 n q)
      = sageAt A X Wn Ws (fun q => b (ix1 q)) n q := by
  rw [dot_eq_plain]
  show ((Host.dotGeneral (F := Ideal) (DotDims.plain 100000 128 128) none A Wn : FVec Ideal ⟨2, ![100000, 128]⟩ .f32) (ix2 n q)
        + (Host.dotGeneral (F := Ideal) (DotDims.plain 100000 128 128) none X Ws : FVec Ideal ⟨2, ![100000, 128]⟩ .f32) (ix2 n q))
      + broadcastInDim S100000x128 ![0, 1] bcast_S1x128_S100000x128_0_1 (broadcastInDim S1x128 ![1] bcast_S128_S1x128_1 b) (ix2 n q) = _
  rw [dotGeneral_plain_apply, dotGeneral_plain_apply, Cert.HostLayout.bcast_cols_apply, Cert.HostLayout.bcast_rowvec_apply]
  rfl

/-- The first layer as the reference spells it is the layer function with the maximum with zero. -/
theorem relu_layer (A X : FVec Ideal S100000x128 .f32) (Wn Ws : FVec Ideal S128x128 .f32) (b : FVec Ideal S128 .f32) :
    maximumf (F := Ideal)
        (addf (F := Ideal)
          (addf (F := Ideal) (Host.dotGeneral (F := Ideal) dot_S100000x128_S128x128_S100000x128_1_0_0_1_n_n none A Wn)
            (Host.dotGeneral (F := Ideal) dot_S100000x128_S128x128_S100000x128_1_0_0_1_n_n none X Ws))
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = layerArr relu0 A X Wn Ws (fun q => b (ix1 q)) := by
  funext j
  obtain ⟨n, q, rfl⟩ : ∃ (n : Fin 100000) (q : Fin 128), j = ix2 n q := ⟨j 0, j 1, eq_ix2 j⟩
  rw [layerArr_ix2, ← pre_apply A X Wn Ws b n q]
  show FloatOps.maximumf (F := Ideal) (φ := .f32) _
      (broadcastInDim S100000x128 ![] bcast_S_S100000x128 (constant (F := Ideal) S_ .f32 0x00000000#32) (ix2 n q)) = _
  rw [Cert.HostLayout.bcast_scalar_apply]
  rfl

/-- The second layer as the reference spells it is the layer function with the logistic function. -/
theorem sigm_layer (A X : FVec Ideal S100000x128 .f32) (Wn Ws : FVec Ideal S128x128 .f32) (b : FVec Ideal S128 .f32) :
    Host.divf (F := Ideal) (broadcastInDim S100000x128 ![] bcast_S_S100000x128 (constant (F := Ideal) S_ .f32 0x3F800000#32))
        (addf (F := Ideal) (broadcastInDim S100000x128 ![] bcast_S_S100000x128 (constant (F := Ideal) S_ .f32 0x3F800000#32))
          (Host.exp (F := Ideal) (Host.negf (F := Ideal)
            (addf (F := Ideal)
              (addf (F := Ideal) (Host.dotGeneral (F := Ideal) dot_S100000x128_S128x128_S100000x128_1_0_0_1_n_n none A Wn)
                (Host.dotGeneral (F := Ideal) dot_S100000x128_S128x128_S100000x128_1_0_0_1_n_n none X Ws))
              (broadcastInDim S100000x128 ![0, 1] bcast_S1x128_S100000x128_0_1 (broadcastInDim S1x128 ![1] bcast_S128_S1x128_1 b))))))
      = layerArr sigm A X Wn Ws (fun q => b (ix1 q)) := by
  funext j
  obtain ⟨n, q, rfl⟩ : ∃ (n : Fin 100000) (q : Fin 128), j = ix2 n q := ⟨j 0, j 1, eq_ix2 j⟩
  rw [layerArr_ix2, ← pre_apply A X Wn Ws b n q]
  show FloatOps.hostDivf (F := Ideal) (φ := .f32)
      (broadcastInDim S100000x128 ![] bcast_S_S100000x128 (constant (F := Ideal) S_ .f32 0x3F800000#32) (ix2 n q))
      (FloatOps.addf (F := Ideal) (φ := .f32)
        (broadcastInDim S100000x128 ![] bcast_S_S100000x128 (constant (F := Ideal) S_ .f32 0x3F800000#32) (ix2 n q))
        (FloatOps.hostUnary (F := Ideal) (φ := .f32) .exp (FloatOps.hostNegf (F := Ideal) (φ := .f32) _))) = _
  rw [Cert.HostLayout.bcast_scalar_apply]
  show FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) _))) = _
  rw [one_word]
  rfl

/-! ## The reference's stages -/

/-- The first layer's output. -/
theorem hidden_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 x4 : (⟨S2x128x128, .f32⟩ : BufTy).Contents (Elt Ideal)) (x5 : (⟨S2x128, .f32⟩ : BufTy).Contents (Elt Ideal)) :
    val_main_v38 (F := Ideal) x0 x1 x2 x3 x4 x5
      = layerArr relu0 (val_main_v25 (F := Ideal) x0 x1 x2) x0 (val_main_v27 (F := Ideal) x4) (val_main_v30 (F := Ideal) x3)
          (fun q => val_main_v34 (F := Ideal) x5 (ix1 q)) := by
  unfold val_main_v38 val_main_v37 val_main_v32 val_main_v28 val_main_v31 val_main_v36 val_main_v35 val_main_call0_v0 val_main_call0_cst
  exact relu_layer _ _ _ _ _

/-- The second layer's aggregation is the first layer's aggregation of the first layer's output. -/
theorem agg2_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 x4 : (⟨S2x128x128, .f32⟩ : BufTy).Contents (Elt Ideal)) (x5 : (⟨S2x128, .f32⟩ : BufTy).Contents (Elt Ideal)) :
    val_main_v53 (F := Ideal) x0 x1 x2 x3 x4 x5 = val_main_v25 (F := Ideal) (val_main_v38 (F := Ideal) x0 x1 x2 x3 x4 x5) x1 x2 := by
  unfold val_main_v53 val_main_v52 val_main_v51 val_main_v50 val_main_v49 val_main_v48 val_main_v47 val_main_v46 val_main_v45
    val_main_v44 val_main_v43 val_main_v42 val_main_v41 val_main_v40 val_main_v39 val_main_cst_6 val_main_c_4 val_main_c_5
  unfold val_main_v25 val_main_v24 val_main_v23 val_main_v22 val_main_v21 val_main_v20 val_main_v19 val_main_v18 val_main_v17
    val_main_v16 val_main_v15 val_main_v14 val_main_v13 val_main_v12 val_main_v11 val_main_cst_3 val_main_c val_main_c_2
  rfl

/-- The result. -/
theorem result_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 x4 : (⟨S2x128x128, .f32⟩ : BufTy).Contents (Elt Ideal)) (x5 : (⟨S2x128, .f32⟩ : BufTy).Contents (Elt Ideal)) :
    val_main_v71 (F := Ideal) x0 x1 x2 x3 x4 x5
      = layerArr sigm (val_main_v53 (F := Ideal) x0 x1 x2 x3 x4 x5) (val_main_v38 (F := Ideal) x0 x1 x2 x3 x4 x5)
          (val_main_v55 (F := Ideal) x4) (val_main_v58 (F := Ideal) x3) (fun q => val_main_v62 (F := Ideal) x5 (ix1 q)) := by
  unfold val_main_v71 val_main_v70 val_main_v69 val_main_v68 val_main_v67 val_main_v66 val_main_v65 val_main_v64 val_main_v63
    val_main_v60 val_main_v59 val_main_v56 val_main_cst_7 val_main_cst_8
  exact sigm_layer _ _ _ _ _

end Cert.ReferenceIdeal.Hand

end
-- ==== Proof.Bridge.lean ====
/-
  The kernel's host functions are the reference's stages.

  The two programs apply the same host operations to the edge list, the edge weights, the stacked weights and the
  stacked biases; each program spells them over its own copies of the shapes and dimension records, which are the same
  literals.  So the aggregation, the weight slices and the bias slices named on the kernel's side are the reference's
  stages of the same arguments.  The one place the two differ is the bias's last step: the kernel reshapes the bias
  vector to a one-row matrix, the reference broadcasts it to one; entry (0, q) of either is entry q of the vector.
-/
import proofs.«173386_j2671469658134_1_alg».proof.Proof.HostChain
import proofs.«173386_j2671469658134_1_alg».proof.Proof.RefSide

noncomputable section

namespace Cert.Bridge

open Cert.KernelIdeal.Hand Cert.ReferenceIdeal.Read
open Idealize.ShloMosaic Idealize.ShloMosaic.ValueIdx

/-- The aggregation of features X along the edges. -/
theorem aggregate_eq (X : (⟨Cert.KernelIdeal.S100000x128, .f32⟩ : BufTy).Contents (Elt Ideal)) (ei : (⟨Cert.KernelIdeal.S2x1600000, .i32⟩ : BufTy).Contents (Elt Ideal)) (ew : (⟨Cert.KernelIdeal.S1600000, .f32⟩ : BufTy).Contents (Elt Ideal)) :
    aggregate X (srcIdx ei) (dstIdx ei) (degCol (dstIdx ei)) ew = val_main_v25 (F := Ideal) X ei ew := by
  unfold aggregate srcIdx dstIdx degCol
  unfold val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7
    val_main_v6 val_main_v5 val_main_v4 val_main_v3 val_main_v2 val_main_v1 val_main_v0
    val_main_cst val_main_cst_0 val_main_cst_1 val_main_cst_3 val_main_c val_main_c_2
  rfl

/-- Layer 0's neighbour weights. -/
theorem weight0_neigh (w : (⟨Cert.KernelIdeal.S2x128x128, .f32⟩ : BufTy).Contents (Elt Ideal)) : weight0 w = val_main_v27 (F := Ideal) w := by
  unfold weight0 val_main_v27 val_main_v26; rfl
/-- Layer 0's self weights. -/
theorem weight0_self (w : (⟨Cert.KernelIdeal.S2x128x128, .f32⟩ : BufTy).Contents (Elt Ideal)) : weight0 w = val_main_v30 (F := Ideal) w := by
  unfold weight0 val_main_v30 val_main_v29; rfl
/-- Layer 1's neighbour weights. -/
theorem weight1_neigh (w : (⟨Cert.KernelIdeal.S2x128x128, .f32⟩ : BufTy).Contents (Elt Ideal)) : weight1 w = val_main_v55 (F := Ideal) w := by
  unfold weight1 val_main_v55 val_main_v54; rfl
/-- Layer 1's self weights. -/
theorem weight1_self (w : (⟨Cert.KernelIdeal.S2x128x128, .f32⟩ : BufTy).Contents (Elt Ideal)) : weight1 w = val_main_v58 (F := Ideal) w := by
  unfold weight1 val_main_v58 val_main_v57; rfl
/-- Layer 0's bias vector. -/
theorem bias0_eq (b : (⟨Cert.KernelIdeal.S2x128, .f32⟩ : BufTy).Contents (Elt Ideal)) : bias0 b = val_main_v34 (F := Ideal) b := by
  unfold bias0 val_main_v34 val_main_v33; rfl
/-- Layer 1's bias vector. -/
theorem bias1_eq (b : (⟨Cert.KernelIdeal.S2x128, .f32⟩ : BufTy).Contents (Elt Ideal)) : bias1 b = val_main_v62 (F := Ideal) b := by
  unfold bias1 val_main_v62 val_main_v61; rfl

/-- A bias vector reshaped to a one-row matrix reads, at (0, q), the vector's entry q. -/
theorem biasRow_apply (v : (⟨Cert.KernelIdeal.S128, .f32⟩ : BufTy).Contents (Elt Ideal)) (q : Fin 128) : biasRow v (ix2 (0 : Fin 1) q) = v (ix1 q) := by
  unfold biasRow
  exact Cert.HostLayout.reshape_rowvec_apply _ v (0 : Fin 1) q

end Cert.Bridge

end
-- ==== Proof.Join.lean ====
/-
  The reference's result is the kernel's two-layer model of the same arguments.

  The reference's first layer is the layer function (maximum with zero) of its aggregation stage, the node features, its
  two weight stages and its bias stage; those stages are the kernel's host functions of the same arguments, and the
  kernel's one-row bias reads at (0, q) what the bias vector reads at q: so the reference's first layer is the kernel's
  hidden features.  The second layer repeats the argument on the hidden features.
-/
import proofs.«173386_j2671469658134_1_alg».proof.Proof.KernelValue
import proofs.«173386_j2671469658134_1_alg».proof.Proof.Bridge

noncomputable section

namespace Cert.Bridge

open Cert.KernelIdeal.Hand Cert.ReferenceIdeal.Hand Cert.ReferenceIdeal.Read Cert.Layer
open Idealize.ShloMosaic Idealize.ShloMosaic.ValueIdx

/-- The reference's first layer is the hidden features. -/
theorem hidden_join (x0 : (⟨Cert.KernelIdeal.S100000x128, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 x4 : (⟨Cert.KernelIdeal.S2x128x128, .f32⟩ : BufTy).Contents (Elt Ideal)) (x5 : (⟨Cert.KernelIdeal.S2x128, .f32⟩ : BufTy).Contents (Elt Ideal)) :
    val_main_v38 (F := Ideal) x0 x1 x2 x3 x4 x5 = Cert.KernelIdeal.Hand.hidden x0 x1 x2 x3 x4 x5 := by
  rw [hidden_eq, ← aggregate_eq, ← weight0_neigh, ← weight0_self, ← bias0_eq]
  unfold Cert.KernelIdeal.Hand.hidden
  simp only [biasRow_apply]

/-- The reference's result is the model. -/
theorem model_join (x0 : (⟨Cert.KernelIdeal.S100000x128, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 x4 : (⟨Cert.KernelIdeal.S2x128x128, .f32⟩ : BufTy).Contents (Elt Ideal)) (x5 : (⟨Cert.KernelIdeal.S2x128, .f32⟩ : BufTy).Contents (Elt Ideal)) :
    val_main_v71 (F := Ideal) x0 x1 x2 x3 x4 x5 = model x0 x1 x2 x3 x4 x5 := by
  rw [result_eq, agg2_eq, hidden_join, ← aggregate_eq, ← weight1_neigh, ← weight1_self, ← bias1_eq]
  unfold model
  simp only [biasRow_apply]

end Cert.Bridge

end
-- ==== Proof.lean ====
/-
  Two layers of neighbourhood averaging on a graph: the kernel against its reference, on the extended reals.

  For node features x (100000 rows of 128), an edge list with edge weights, stacked weights W_self, W_neigh (two 128 x 128
  matrices each) and stacked biases (two vectors of 128), each layer computes, for every node n,

      agg (n) = (sum over the edges e arriving at n of weight (e) * x (source (e))) / max (number of edges arriving at n, 1)
      out (n) = act (agg (n) W_neigh + x (n) W_self + bias),

  with act the maximum with zero in the first layer and the logistic function in the second; the second layer runs on
  the first layer's output.

  Both programs compute agg by the same host operations (a gather, a scatter-add, a division).  The kernel computes
  out in a pallas_call per layer, 5000 rows of nodes at a grid point, the two products accumulated from zero on operands
  passed through a narrower float format; the reference computes it on the whole arrays, with the logistic function
  spelt 1 / (1 + exp (-v)).  On the extended reals a change of float format changes nothing, a product is the plain sum
  of products whichever program computes it, the three summands are added in the same order, and the logistic function
  is that quotient by definition.  So each program's result is the same two-layer function of the arguments
  (`Cert.KernelIdeal.Hand.model`): the kernel's by reading what each pallas_call's write-backs leave in its output
  array block of rows by block of rows, the reference's by reading its composed operations at one entry.  No property
  of the inputs is used: the equality holds at infinite inputs too.
  The idealization pass rewrote nothing in the kernel, so that claim is empty; the three frame claims are the generated
  frames and the reference's generated run.
-/
import proofs.«173386_j2671469658134_1_alg».proof.Defs
import proofs.«173386_j2671469658134_1_alg».proof.Proof.Gen.Kernel
import proofs.«173386_j2671469658134_1_alg».proof.Proof.Gen.Kernel.Frame
import proofs.«173386_j2671469658134_1_alg».proof.Proof.Gen.KernelIdeal
import proofs.«173386_j2671469658134_1_alg».proof.Proof.Gen.KernelIdeal.Frame
import proofs.«173386_j2671469658134_1_alg».proof.Proof.Gen.ReferenceIdeal
import proofs.«173386_j2671469658134_1_alg».proof.Proof.Gen.Pre_finite_inputs
import proofs.«173386_j2671469658134_1_alg».proof.Proof.Gen.ReferenceIdeal.Run
import proofs.«173386_j2671469658134_1_alg».proof.Proof.Gen.ReferenceIdeal.Read
import proofs.«173386_j2671469658134_1_alg».proof.Proof.KernelValue
import proofs.«173386_j2671469658134_1_alg».proof.Proof.Join

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the two-layer model of the arguments in their result buffers. -/
theorem algebraic : Cert.algebraic_KernelIdeal_ReferenceIdeal := by
  intro m ρ m' ρ' _ hagree
  refine ⟨fun c => Cert.KernelIdeal.Hand.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m ρ c), (h c).2⟩)
      (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq, (hagree c).1, (hagree c).2.1, (hagree c).2.2.1, (hagree c).2.2.2.1,
      (hagree c).2.2.2.2.1, (hagree c).2.2.2.2.2]
    exact Cert.Bridge.model_join _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
